-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S4x16x2048x2048 : Shape := ⟨4, ![4, 16, 2048, 2048]⟩
abbrev S1x512x128 : Shape := ⟨3, ![1, 512, 128]⟩
abbrev S1x2048x128 : Shape := ⟨3, ![1, 2048, 128]⟩
abbrev S1x2x512x2048 : Shape := ⟨4, ![1, 2, 512, 2048]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1x512x2048 : Shape := ⟨4, ![1, 1, 512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x16x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x2x512x2048, .f32⟩
  | .local _ .vmem, ⟨9, _⟩ => ⟨S1x2x512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  bitsLt_bf16_f32 : FTy.bits .bf16 < FTy.bits .f32
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S1x2x512x2048_S1x1x512x2048_0_0_0_0 : ∀ a, (![0, 0, 0, 0] : Fin 4 → Nat) a + S1x1x512x2048.size a ≤ S1x2x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  slices_S512x128_o0_64_S512x64 : S512x128.Slices ![0, 64] S512x64
  slices_S2048x128_o0_64_S2048x64 : S2048x128.Slices ![0, 64] S2048x64
  inb_S1x2x512x2048_S1x1x512x2048_0_1_0_0 : ∀ a, (![0, 1, 0, 0] : Fin 4 → Nat) a + S1x1x512x2048.size a ≤ S1x2x512x2048.size a
  concatenates_S512x64_S512x64_S512x128_d1 : Shape.Concatenates [S512x64, S512x64] S512x128 1
  shapeCasts_S512x128_S1x512x128 : S512x128.ShapeCasts S1x512x128
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x1024.size a
  hwx0_0 : ∀ i : grid0.Coords, EltTy.bits .f32 = 32 ∨ (Rect.block (s := S4x2048x1024) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x1024.size a
  hwx0_1 : ∀ i : grid0.Coords, EltTy.bits .f32 = 32 ∨ (Rect.block (s := S4x2048x1024) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x1024.size a
  hwx0_2 : ∀ i : grid0.Coords, EltTy.bits .f32 = 32 ∨ (Rect.block (s := S4x2048x1024) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S4x2048x1024.size a
  hwx0_3 : ∀ i : grid0.Coords, EltTy.bits .f32 = 32 ∨ (Rect.block (s := S4x2048x1024) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x512x2048.size a ≤ S4x16x2048x2048.size a
  hwx0_4 : ∀ i : grid0.Coords, EltTy.bits .f32 = 32 ∨ (Rect.block (s := S4x16x2048x2048) S1x2x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x16x64, .f32⟩
  | .hbm, ⟨4, _⟩ => ⟨S4x16x2048x64, .f32⟩
  | .hbm, ⟨5, _⟩ => ⟨S4x2048x16x64, .f32⟩
  | .hbm, ⟨6, _⟩ => ⟨S4x16x2048x64, .f32⟩
  | .hbm, ⟨7, _⟩ => ⟨S4x2048x16x64, .f32⟩
  | .hbm, ⟨8, _⟩ => ⟨S4x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | .hbm, ⟨31, _⟩ => ⟨S4x2048x16x64, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled dot-product attention over sixteen heads, as functions of the three argument arrays, index by index, on the
  extended reals.

  The arguments `q`, `k`, `v` are arrays `[4, 2048, 1024]`: batch, position, embedding lane; head `h` owns the
  sixty-four lanes `64·h + d`. For a batch `b`, a head `h` and a query position `s`, the score against key position `c`
  is `(∑ d, q[b, s, 64h+d] · k[b, c, 64h+d]) · scale`, the scale being the number the word `0x3D000000` denotes (1/32).
  The attention weights of the row are its softmax: with `M` the maximum of the row's scores (folded from −∞),
  `weights c = exp (score c − M) / ∑ c', exp (score c' − M)`. The second result is the array `[4, 16, 2048, 2048]` of
  these weights; the first is `out[b, s, e] = ∑ c, weights[b, e / 64, s, c] · v[b, c, e]`: lane `e` belongs to head
  `e / 64`.
-/
import Idealize.ShloMosaic.PureOps.Ideal
import Idealize.ShloMosaic.Lib.ValueIdx

noncomputable section

namespace Cert.Attention

open Idealize.ShloMosaic Idealize.ShloMosaic.ValueIdx

/-- An argument array, and the first result: batch × position × lane. -/
abbrev SArg : Shape := ⟨3, ![4, 2048, 1024]⟩
/-- The array of attention weights: batch × head × query position × key position. -/
abbrev SW : Shape := ⟨4, ![4, 16, 2048, 2048]⟩

/-- −∞, as the word both programs start a row's maximum from. -/
abbrev negInf : EReal := Ideal.ofBits .f32 0xFF800000#32
/-- The scale of the scores, as the word the kernel multiplies by (it denotes 1/32). -/
abbrev scale : EReal := Ideal.ofBits .f32 0x3D000000#32

/-- Lane `64·h + d` of the embedding axis: coordinate `d` of head `h`. -/
def lane (h : Fin 16) (d : Fin 64) : Fin 1024 := ⟨h.val * 64 + d.val, by omega⟩

/-- The head a lane belongs to. -/
def headOf (e : Fin 1024) : Fin 16 := ⟨e.val / 64, by omega⟩

/-- The maximum of a row, folded from −∞. -/
def rowMax (x : Fin 2048 → EReal) : EReal := (Finset.univ : Finset (Fin 2048)).fold max negInf x

/-- The softmax of a row at a position. -/
def softmax (x : Fin 2048 → EReal) (c : Fin 2048) : EReal :=
  Ideal.div (Ideal.exp (x c - rowMax x)) (∑ c' : Fin 2048, Ideal.exp (x c' - rowMax x))

/-- The scaled score of query position `s` against key position `c` in head `h` of batch `b`. -/
def score (q k : SArg.Idx → EReal) (b : Fin 4) (h : Fin 16) (s c : Fin 2048) : EReal :=
  (∑ d : Fin 64, q (ix3 b s (lane h d)) * k (ix3 b c (lane h d))) * scale

/-- The attention weight of key position `c` for query position `s`. -/
def weights (q k : SArg.Idx → EReal) (b : Fin 4) (h : Fin 16) (s c : Fin 2048) : EReal :=
  softmax (score q k b h s) c

/-- The attended value at lane `e`: the weights of the lane's head against the values at that lane. -/
def attend (q k v : SArg.Idx → EReal) (b : Fin 4) (s : Fin 2048) (e : Fin 1024) : EReal :=
  ∑ c : Fin 2048, weights q k b (headOf e) s c * v (ix3 b c e)

/-- The second result, the attention weights, as one function of the arguments. -/
def weightsArr (q k : SArg.Idx → EReal) : SW.Idx → EReal := fun i => weights q k (i 0) (i 1) (i 2) (i 3)

/-- The first result as one function of the arguments. -/
def attendArr (q k v : SArg.Idx → EReal) : SArg.Idx → EReal := fun i => attend q k v (i 0) (i 1) (i 2)

end Cert.Attention

end
-- ==== Proof.BodyMatmul.lean ====
/-
  The two matrix products of the kernel body, read at an entry, at the ideal values. Into a zero accumulator a
  product is the plain sum over the contracted coordinate: the scores of a query row `r` against a key row `c`
  contract the sixty-four lanes of one head, `∑ d, Q[r, d] · K[c, d]` (both operands carry the lane on their second
  axis); the weighted values contract the 2048 key positions, `∑ c, P[r, c] · V[c, d]`.
-/
import proofs.«106700_j15539191677067_2_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The dimension numbers of the score product: both operands contract their second axis. -/
abbrev dQK : DotDims S512x64 S2048x64 S512x2048 := dot_S512x64_S2048x64_S512x2048_1_1_0_0_n_n
/-- The dimension numbers of the value product: the weights contract their second axis, the values their first. -/
abbrev dPV : DotDims S512x2048 S2048x64 S512x64 := dot_S512x2048_S2048x64_S512x64_1_0_0_1_n_n

theorem dQK_lhs0 (j : S512x2048.Idx) (q : dQK.contr.Idx) : (dQK.lhsIdx j q 0).val = (j 0).val := by
  unfold DotDims.lhsIdx
  rw [dif_neg (show ¬(0 : Fin S512x64.rank) ∈ dQK.lhsBatch by decide), dif_pos (show (0 : Fin S512x64.rank) ∈ dQK.lhsNonContracting by decide)]
  rfl
theorem dQK_lhs1 (j : S512x2048.Idx) (q : dQK.contr.Idx) : (dQK.lhsIdx j q 1).val = (q ⟨0, by decide⟩).val :=
  dQK.lhsIdx_val_of_single rfl j q
theorem dQK_rhs0 (j : S512x2048.Idx) (q : dQK.contr.Idx) : (dQK.rhsIdx j q 0).val = (j 1).val := by
  unfold DotDims.rhsIdx
  rw [dif_neg (show ¬(0 : Fin S2048x64.rank) ∈ dQK.rhsBatch by decide), dif_pos (show (0 : Fin S2048x64.rank) ∈ dQK.rhsNonContracting by decide)]
  rfl
theorem dQK_rhs1 (j : S512x2048.Idx) (q : dQK.contr.Idx) : (dQK.rhsIdx j q 1).val = (q ⟨0, by decide⟩).val :=
  dQK.rhsIdx_val_of_single rfl j q

/-- The score product at `(r, c)`: the sum over the head's lanes of query row `r` times key row `c`. -/
theorem scores_apply (Q : FVec Ideal S512x64 .bf16) (K : FVec Ideal S2048x64 .bf16) (r : Fin 512) (c : Fin 2048) :
    matmul dQK none Q K (constant S512x2048 .f32 0x00000000#32) (ix2 r c) = ∑ d : Fin 64, Q (ix2 r d) * K (ix2 c d) := by
  simp only [matmul]
  rw [Ideal.matmul_constant_zero_apply, ← Equiv.sum_comp (contrEquiv1 dQK 64 rfl rfl).symm]
  refine Finset.sum_congr rfl fun k _ => ?_
  have hk := contrEquiv1_symm_val dQK 64 rfl rfl k
  have el : dQK.lhsIdx (ix2 r c) ((contrEquiv1 dQK 64 rfl rfl).symm k) = ix2 r k := funext fun a => Fin.ext (by
    match a with
    | ⟨0, _⟩ => exact dQK_lhs0 _ _
    | ⟨1, _⟩ => exact (dQK_lhs1 _ _).trans hk)
  have er : dQK.rhsIdx (ix2 r c) ((contrEquiv1 dQK 64 rfl rfl).symm k) = ix2 c k := funext fun a => Fin.ext (by
    match a with
    | ⟨0, _⟩ => exact dQK_rhs0 _ _
    | ⟨1, _⟩ => exact (dQK_rhs1 _ _).trans hk)
  rw [el, er]

theorem dPV_lhs0 (j : S512x64.Idx) (q : dPV.contr.Idx) : (dPV.lhsIdx j q 0).val = (j 0).val := by
  unfold DotDims.lhsIdx
  rw [dif_neg (show ¬(0 : Fin S512x2048.rank) ∈ dPV.lhsBatch by decide), dif_pos (show (0 : Fin S512x2048.rank) ∈ dPV.lhsNonContracting by decide)]
  rfl
theorem dPV_lhs1 (j : S512x64.Idx) (q : dPV.contr.Idx) : (dPV.lhsIdx j q 1).val = (q ⟨0, by decide⟩).val :=
  dPV.lhsIdx_val_of_single rfl j q
theorem dPV_rhs0 (j : S512x64.Idx) (q : dPV.contr.Idx) : (dPV.rhsIdx j q 0).val = (q ⟨0, by decide⟩).val :=
  dPV.rhsIdx_val_of_single rfl j q
theorem dPV_rhs1 (j : S512x64.Idx) (q : dPV.contr.Idx) : (dPV.rhsIdx j q 1).val = (j 1).val := by
  unfold DotDims.rhsIdx
  rw [dif_neg (show ¬(1 : Fin S2048x64.rank) ∈ dPV.rhsBatch by decide), dif_pos (show (1 : Fin S2048x64.rank) ∈ dPV.rhsNonContracting by decide)]
  rfl

/-- The value product at `(r, d)`: the sum over the key positions of the weights of row `r` times lane `d` of the values. -/
theorem attend_apply (P : FVec Ideal S512x2048 .bf16) (V : FVec Ideal S2048x64 .bf16) (r : Fin 512) (d : Fin 64) :
    matmul dPV none P V (constant S512x64 .f32 0x00000000#32) (ix2 r d) = ∑ c : Fin 2048, P (ix2 r c) * V (ix2 c d) := by
  simp only [matmul]
  rw [Ideal.matmul_constant_zero_apply, ← Equiv.sum_comp (contrEquiv1 dPV 2048 rfl rfl).symm]
  refine Finset.sum_congr rfl fun k _ => ?_
  have hk := contrEquiv1_symm_val dPV 2048 rfl rfl k
  have el : dPV.lhsIdx (ix2 r d) ((contrEquiv1 dPV 2048 rfl rfl).symm k) = ix2 r k := funext fun a => Fin.ext (by
    match a with
    | ⟨0, _⟩ => exact dPV_lhs0 _ _
    | ⟨1, _⟩ => exact (dPV_lhs1 _ _).trans hk)
  have er : dPV.rhsIdx (ix2 r d) ((contrEquiv1 dPV 2048 rfl rfl).symm k) = ix2 k d := funext fun a => Fin.ext (by
    match a with
    | ⟨0, _⟩ => exact (dPV_rhs0 _ _).trans hk
    | ⟨1, _⟩ => exact dPV_rhs1 _ _)
  rw [el, er]

end Cert.KernelIdeal.Body

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.BodyRows.lean ====
/-
  The row-wise part of the kernel body at the ideal values: from a matrix of products `[512, 2048]` and a scalar, the
  body scales every entry, takes each row's maximum (kept as a column and broadcast back along the row), subtracts it,
  exponentiates, sums each row the same way and divides. Read at `(r, c)` that is the softmax, at position `c`, of
  row `r` of the scaled matrix.
-/
import proofs.«106700_j15539191677067_2_alg».proof.Proof.Gen.KernelIdeal.Skeleton
import proofs.«106700_j15539191677067_2_alg».proof.Proof.Spec
import proofs.«106700_j15539191677067_2_alg».proof.Proof.LibKeepdims
import proofs.«106700_j15539191677067_2_alg».proof.Proof.LibRowReduce

noncomputable section

namespace Cert.KernelIdeal.Body

open Cert.KernelIdeal Cert.KernelIdeal.Gen Idealize.ShloMosaic Idealize.ShloMosaic.ValueIdx Cert.Attention

/-- A row statistic kept as a column and broadcast back along the rows reads, at `(r, c)`, the statistic of row `r`. -/
theorem keepdims_apply (w : FVec Ideal S512 .f32) (r : Fin 512) (c : Fin 2048) :
    broadcastTo S512x2048 (shapeCast S512x1 w shapeCasts_S512_S512x1) broadcasts_S512x1_S512x2048 (ix2 r c) = w (ix1 r) :=
  (Cert.LibKeepdims.broadcastTo_a1_ab_apply _ _ r c).trans (Cert.LibKeepdims.shapeCast_a_a1_apply _ _ r 0)

set_option backward.isDefEq.respectTransparency.types false in
/-- The body's row-wise part at `(r, c)`: the softmax of row `r` of the scaled products, at `c`. -/
theorem rows_apply (v35 : FVec Ideal S512x2048 .f32) (s : Ideal .f32) (r : Fin 512) (c : Fin 2048) :
    k0_pay1 (F := Ideal) v35 s (ix2 r c) = softmax (fun c' => v35 (ix2 r c') * s) c := by
  unfold k0_pay1
  show Ideal.div (Ideal.exp (v35 (ix2 r c) * s - _)) _ = _
  rw [keepdims_apply, keepdims_apply, Cert.LibRowReduce.rowMax_apply, Cert.LibRowReduce.rowSum_apply]
  unfold softmax rowMax
  refine congrArg (Ideal.div _) (Finset.sum_congr rfl fun c' _ => ?_)
  show Ideal.exp (v35 (ix2 r c') * s - _) = _
  rw [keepdims_apply, Cert.LibRowReduce.rowMax_apply]
  rfl

end Cert.KernelIdeal.Body

end
-- ==== Proof.BodyHeads.lean ====
/-
  The kernel body's values for the two heads a grid point handles, as functions of the three input blocks, at the
  ideal values. A block of queries is `[1, 512, 128]` and a block of keys or values `[1, 2048, 128]`: the 128 lanes are
  the two heads' sixty-four lanes side by side, head `hh` of the pair owning lanes `64·hh + d`. For each head the body
  cuts the head's lanes out of the three blocks, multiplies queries by keys and scales (the scores of a query row),
  takes the softmax of each row (the weights, stored), multiplies the weights by the head's values, and lays the two
  heads' results side by side again.
-/
import proofs.«106700_j15539191677067_2_alg».proof.Proof.Gen.KernelIdeal.Skeleton
import proofs.«106700_j15539191677067_2_alg».proof.Proof.Spec
import proofs.«106700_j15539191677067_2_alg».proof.Proof.BodyMatmul
import proofs.«106700_j15539191677067_2_alg».proof.Proof.BodyRows
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Attention

/-- Lane `64·hh + d` of a block's 128 lanes: coordinate `d` of head `hh` of the pair. -/
def laneOf (hh : Fin 2) (d : Fin 64) : Fin 128 := ⟨hh.val * 64 + d.val, by omega⟩
/-- The head of the pair a block lane belongs to. -/
def halfOf (j : Fin 128) : Fin 2 := ⟨j.val / 64, by omega⟩

/-- The scaled scores of query row `r` of the block against the key rows, in head `hh` of the pair. -/
def blkScore (x0 : Vec Ideal S1x512x128 .f32) (x1 : Vec Ideal S1x2048x128 .f32) (hh : Fin 2) (r : Fin 512) (c : Fin 2048) : EReal :=
  (∑ d : Fin 64, x0 (ix3 (0 : Fin 1) r (laneOf hh d)) * x1 (ix3 (0 : Fin 1) c (laneOf hh d))) * scale

/-- The block of attention weights the point writes: head of the pair × query row × key row. -/
def blkWeights (x0 : Vec Ideal S1x512x128 .f32) (x1 : Vec Ideal S1x2048x128 .f32) : S1x2x512x2048.Idx → EReal :=
  fun y => softmax (blkScore x0 x1 (y 1) (y 2)) (y 3)

/-- The block of attended values the point writes: query row × lane, the lane's head deciding the weights. -/
def blkAttend (x0 : Vec Ideal S1x512x128 .f32) (x1 x2 : Vec Ideal S1x2048x128 .f32) : S1x512x128.Idx → EReal :=
  fun y => ∑ c : Fin 2048, softmax (blkScore x0 x1 (halfOf (y 2)) (y 1)) c * x2 (ix3 (0 : Fin 1) c (y 2))

/-- The products of query row `r` and key row `c` over the lanes of head `hh`, cut out of the two blocks at the
    head's offset `o = 64·hh`. -/
theorem headProducts_apply (x0 : Vec Ideal S1x512x128 .f32) (x1 : Vec Ideal S1x2048x128 .f32) (o : ℕ)
    (hq : S512x128.Slices ![0, o] S512x64) (hk : S2048x128.Slices ![0, o] S2048x64) (hh : Fin 2) (ho : o = hh.val * 64)
    (r : Fin 512) (c : Fin 2048) :
    matmul dQK none (truncf .bf16 (extractStridedSlice S512x64 ![0, o] (k0_pay4 x0) hq) bitsLt_bf16_f32)
        (truncf .bf16 (extractStridedSlice S2048x64 ![0, o] (k0_pay5 x1) hk) bitsLt_bf16_f32)
        (constant S512x2048 .f32 0x00000000#32) (ix2 r c)
      = ∑ d : Fin 64, x0 (ix3 (0 : Fin 1) r (laneOf hh d)) * x1 (ix3 (0 : Fin 1) c (laneOf hh d)) := by
  refine (scores_apply _ _ r c).trans (Finset.sum_congr rfl fun d _ => ?_)
  show extractStridedSlice S512x64 ![0, o] (k0_pay4 x0) hq (ix2 r d) * extractStridedSlice S2048x64 ![0, o] (k0_pay5 x1) hk (ix2 c d) = _
  rw [slice2_axis1_apply o _ hq r d (laneOf hh d) (by show hh.val * 64 + d.val = o + d.val; omega),
    slice2_axis1_apply o _ hk c d (laneOf hh d) (by show hh.val * 64 + d.val = o + d.val; omega)]
  unfold k0_pay4 k0_pay5
  rw [shapeCast_1ab_ab_apply, shapeCast_1ab_ab_apply]

/-- The weights of the first head of the pair at `(r, c)`. -/
theorem weights0_apply (x0 : Vec Ideal S1x512x128 .f32) (x1 : Vec Ideal S1x2048x128 .f32) (r : Fin 512) (c : Fin 2048) :
    k0_pay7 (F := Ideal) x0 x1 (ix2 r c) = softmax (blkScore x0 x1 0 r) c := by
  show k0_pay1 (F := Ideal) (matmul dQK none (truncf .bf16 (extractStridedSlice S512x64 ![0, 0] (k0_pay4 x0) slices_S512x128_o0_0_S512x64) bitsLt_bf16_f32)
        (truncf .bf16 (extractStridedSlice S2048x64 ![0, 0] (k0_pay5 x1) slices_S2048x128_o0_0_S2048x64) bitsLt_bf16_f32)
        (constant S512x2048 .f32 0x00000000#32)) (Scalar.ofBits .f32 0x3D000000#32) (ix2 r c) = _
  rw [rows_apply]
  refine congrArg (fun x => softmax x c) (funext fun c' => ?_)
  rw [headProducts_apply x0 x1 0 _ _ 0 rfl r c']
  rfl

/-- The products of the second head of the pair at `(r, c)`. -/
theorem products1_apply (x0 : Vec Ideal S1x512x128 .f32) (x1 : Vec Ideal S1x2048x128 .f32) (r : Fin 512) (c : Fin 2048) :
    k0_pay11 (F := Ideal) x0 x1 (ix2 r c)
      = ∑ d : Fin 64, x0 (ix3 (0 : Fin 1) r (laneOf 1 d)) * x1 (ix3 (0 : Fin 1) c (laneOf 1 d)) :=
  headProducts_apply x0 x1 64 _ _ 1 rfl r c

/-- The weights of the second head of the pair at `(r, c)`. -/
theorem weights1_apply (x0 : Vec Ideal S1x512x128 .f32) (x1 : Vec Ideal S1x2048x128 .f32) (r : Fin 512) (c : Fin 2048) :
    k0_pay1 (F := Ideal) (k0_pay11 x0 x1) (Scalar.ofBits .f32 0x3D000000#32) (ix2 r c) = softmax (blkScore x0 x1 1 r) c := by
  rw [rows_apply]
  refine congrArg (fun x => softmax x c) (funext fun c' => ?_)
  rw [products1_apply]
  rfl

/-- The attended values of the first head of the pair at `(r, d)`: its weights against lanes `d` of the values. -/
theorem attend0_apply (x0 : Vec Ideal S1x512x128 .f32) (x1 x2 : Vec Ideal S1x2048x128 .f32) (r : Fin 512) (d : Fin 64) :
    k0_pay9 (F := Ideal) x0 x1 x2 (ix2 r d)
      = ∑ c : Fin 2048, softmax (blkScore x0 x1 0 r) c * x2 (ix3 (0 : Fin 1) c (laneOf 0 d)) := by
  unfold k0_pay9
  refine (attend_apply _ _ r d).trans (Finset.sum_congr rfl fun c _ => ?_)
  show k0_pay7 (F := Ideal) x0 x1 (ix2 r c) * extractStridedSlice S2048x64 ![0, 0] (k0_pay6 x2) slices_S2048x128_o0_0_S2048x64 (ix2 c d) = _
  rw [weights0_apply, slice2_axis1_apply 0 _ _ c d (laneOf 0 d) (by show 0 * 64 + d.val = 0 + d.val; omega)]
  unfold k0_pay6
  rw [shapeCast_1ab_ab_apply]

/-- The second head's lanes of the values at `(c, d)`. -/
theorem values1_apply (x2 : Vec Ideal S1x2048x128 .f32) (c : Fin 2048) (d : Fin 64) :
    k0_pay10 (F := Ideal) x2 (ix2 c d) = x2 (ix3 (0 : Fin 1) c (laneOf 1 d)) := by
  unfold k0_pay10
  show extractStridedSlice S2048x64 ![0, 64] (k0_pay6 x2) slices_S2048x128_o0_64_S2048x64 (ix2 c d) = _
  rw [slice2_axis1_apply 64 _ _ c d (laneOf 1 d) (by show 1 * 64 + d.val = 64 + d.val; omega)]
  unfold k0_pay6
  rw [shapeCast_1ab_ab_apply]

/-- The attended values of the second head of the pair at `(r, d)`. -/
theorem attend1_apply (x0 : Vec Ideal S1x512x128 .f32) (x1 x2 : Vec Ideal S1x2048x128 .f32) (r : Fin 512) (d : Fin 64) :
    matmul dPV none (truncf .bf16 (k0_pay1 (F := Ideal) (k0_pay11 x0 x1) (Scalar.ofBits .f32 0x3D000000#32)) bitsLt_bf16_f32)
        (k0_pay10 x2) (constant S512x64 .f32 0x00000000#32) (ix2 r d)
      = ∑ c : Fin 2048, softmax (blkScore x0 x1 1 r) c * x2 (ix3 (0 : Fin 1) c (laneOf 1 d)) := by
  refine (attend_apply _ _ r d).trans (Finset.sum_congr rfl fun c _ => ?_)
  show k0_pay1 (F := Ideal) (k0_pay11 x0 x1) (Scalar.ofBits .f32 0x3D000000#32) (ix2 r c) * k0_pay10 (F := Ideal) x2 (ix2 c d) = _
  rw [weights1_apply, values1_apply]

end Cert.KernelIdeal.Body

end
-- ==== Proof.LibUnitAxes.lean ====
/-
  A matrix `[a, b]` recast with two leading unit axes, `[1, 1, a, b]`, read at coordinates: the row-major position of
  `(u, v, i, j)` in `[1, 1, a, b]` is that of `(i, j)` in `[a, b]`, the unit coordinates being zero.
-/
import Idealize.ShloMosaic.Lib.ValueLayout
import Idealize.ShloMosaic.Lib.ValueIdx

noncomputable section

namespace Cert.LibUnitAxes

open Idealize.ShloMosaic Idealize.ShloMosaic.ValueIdx

variable {α : Type}

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

end Cert.LibUnitAxes

end
-- ==== Proof.BodyBlocks.lean ====
/-
  What the kernel body leaves in its two output buffers, as functions of the three input blocks, at the ideal
  values. The buffer of attended values `[1, 512, 128]` is written by one store of the two heads' results side by
  side: lane `j` holds the result of head `j / 64` of the pair at coordinate `j mod 64`, which is the sum over the key
  rows of that head's weights times lane `j` of the values. The buffer of weights `[1, 2, 512, 2048]` is written by
  two stores, one per head of the pair, each the head's `[512, 2048]` matrix of weights.
-/
import proofs.«106700_j15539191677067_2_alg».proof.Proof.Gen.KernelIdeal.Frame
import proofs.«106700_j15539191677067_2_alg».proof.Proof.BodyHeads
import proofs.«106700_j15539191677067_2_alg».proof.Proof.LibUnitAxes

noncomputable section

namespace Cert.KernelIdeal.Body

open Cert.KernelIdeal Cert.KernelIdeal.Gen Idealize.ShloMosaic Idealize.ShloMosaic.ValueIdx Cert.Attention

theorem zeros3 : (![0, 0, 0] : Fin 3 → ℕ) = fun _ => 0 := by
  funext a; match a with | ⟨0, _⟩ => rfl | ⟨1, _⟩ => rfl | ⟨2, _⟩ => rfl

/-- A load of a whole query block reads the block. -/
theorem ldQ (x0 : Vec Ideal S1x512x128 .f32) : View.ld x0 r0_0 = x0 := View.ld_unit_zero (S := S1x512x128) zeros3 _ x0
/-- A load of a whole key or value block reads the block. -/
theorem ldKV (x1 : Vec Ideal S1x2048x128 .f32) : View.ld x1 r0_1 = x1 := View.ld_unit_zero (S := S1x2048x128) zeros3 _ x1

/-- The two heads' results side by side, at `(r, j)`: head `j / 64` of the pair at coordinate `j mod 64`. -/
theorem sideBySide_apply (x0 : Vec Ideal S1x512x128 .f32) (x1 x2 : Vec Ideal S1x2048x128 .f32) (u : Fin 1) (r : Fin 512) (j : Fin 128) :
    k0_pay3 (F := Ideal) (k0_pay9 x0 x1 x2) (k0_pay10 x2) (k0_pay11 x0 x1) (Scalar.ofBits .f32 0x3D000000#32) (ix3 u r j)
      = ∑ c : Fin 2048, softmax (blkScore x0 x1 (halfOf j) r) c * x2 (ix3 (0 : Fin 1) c j) := by
  unfold k0_pay3
  rw [shapeCast_ab_1ab_apply]
  by_cases hj : j.val < 64
  · have hh : halfOf j = 0 := Fin.ext (by show j.val / 64 = 0; omega)
    have hl : laneOf 0 ⟨j.val, hj⟩ = j := Fin.ext (by show 0 * 64 + j.val = j.val; omega)
    rw [concatenate_pair_apply_left (t := S512x128) (s₁ := S512x64) (s₂ := S512x64) 1 _ _ _ (ix2 r j) rfl (ix2 r (⟨j.val, hj⟩ : Fin 64))
      (fun b => match b with | ⟨0, _⟩ => rfl | ⟨1, _⟩ => rfl)]
    rw [attend0_apply, hh, hl]
  · have hj' : j.val - 64 < 64 := by have := j.isLt; omega
    have hh : halfOf j = 1 := Fin.ext (by show j.val / 64 = 1; have := j.isLt; omega)
    have hl : laneOf 1 ⟨j.val - 64, hj'⟩ = j := Fin.ext (by show 1 * 64 + (j.val - 64) = j.val; omega)
    rw [concatenate_pair_apply_right (t := S512x128) (s₁ := S512x64) (s₂ := S512x64) 1 _ _ _ (ix2 r j) rfl rfl (ix2 r (⟨j.val - 64, hj'⟩ : Fin 64))
      (fun b hb => match b with | ⟨0, _⟩ => rfl | ⟨1, _⟩ => absurd rfl hb)
      (by show (j.val - 64) + 64 = j.val; omega)]
    rw [attend1_apply, hh, hl]

/-- The buffer of attended values after the body is the block function of the input blocks. -/
theorem out_attend (x0 : Vec Ideal S1x512x128 .f32) (x1 x2 : Vec Ideal S1x2048x128 .f32) :
    out0_3 (F := Ideal) x0 x1 x2 = blkAttend x0 x1 x2 := by
  unfold out0_3
  rw [View.canon_unit_zero zeros3, ldQ, ldKV, ldKV]
  funext y
  obtain ⟨u, r, j, rfl⟩ : ∃ (u : Fin 1) (r : Fin 512) (j : Fin 128), y = ix3 u r j := ⟨y 0, y 1, y 2, eq_ix3 y⟩
  exact sideBySide_apply x0 x1 x2 u r j

/-- Where the first head's store lands: head 0 of the pair. -/
theorem emb_head0 (u v : Fin 1) (r : Fin 512) (c : Fin 2048) :
    r0_2.emb (ix4 u v r c) = ix4 (0 : Fin 1) (0 : Fin 2) r c := by
  funext a; apply Fin.ext; rw [Rect.emb_apply]
  match a with
  | ⟨0, _⟩ => show 0 + 1 * u.val = 0; omega
  | ⟨1, _⟩ => show 0 + 1 * v.val = 0; omega
  | ⟨2, _⟩ => show 0 + 1 * r.val = r.val; omega
  | ⟨3, _⟩ => show 0 + 1 * c.val = c.val; omega

/-- Where the second head's store lands: head 1 of the pair. -/
theorem emb_head1 (u v : Fin 1) (r : Fin 512) (c : Fin 2048) :
    r0_3.emb (ix4 u v r c) = ix4 (0 : Fin 1) (1 : Fin 2) r c := by
  funext a; apply Fin.ext; rw [Rect.emb_apply]
  match a with
  | ⟨0, _⟩ => show 0 + 1 * u.val = 0; omega
  | ⟨1, _⟩ => show 1 + 1 * v.val = 1; omega
  | ⟨2, _⟩ => show 0 + 1 * r.val = r.val; omega
  | ⟨3, _⟩ => show 0 + 1 * c.val = c.val; omega

/-- The buffer of weights after the body is the block function of the input blocks: each head's store holds that
    head's weights, and the two stores cover the buffer. -/
theorem out_weights (x0 : Vec Ideal S1x512x128 .f32) (x1 x2 : Vec Ideal S1x2048x128 .f32) :
    out0_4 (F := Ideal) x0 x1 x2 = blkWeights x0 x1 := by
  funext y
  unfold out0_4
  rw [ldQ, ldKV]
  refine View.canon_apply_of_pieces (Val := Elt Ideal) (e := .f32) (blkWeights x0 x1) _ ?_ y (cover0_4 _ _ y)
  intro p hp x
  rcases List.mem_cons.mp hp with rfl | hp
  · obtain ⟨u, v, r, c, rfl⟩ : ∃ (u v : Fin 1) (r : Fin 512) (c : Fin 2048), x = ix4 u v r c := ⟨x 0, x 1, x 2, x 3, eq_ix4 x⟩
    show k0_pay2 (F := Ideal) (k0_pay11 x0 x1) (Scalar.ofBits .f32 0x3D000000#32) (ix4 u v r c) = blkWeights x0 x1 (r0_3.emb (ix4 u v r c))
    rw [emb_head1]
    unfold k0_pay2
    rw [Cert.LibUnitAxes.shapeCast_ab_11ab_apply, weights1_apply]
    rfl
  · obtain rfl := List.mem_singleton.mp hp
    obtain ⟨u, v, r, c, rfl⟩ : ∃ (u v : Fin 1) (r : Fin 512) (c : Fin 2048), x = ix4 u v r c := ⟨x 0, x 1, x 2, x 3, eq_ix4 x⟩
    show k0_pay8 (F := Ideal) x0 x1 (ix4 u v r c) = blkWeights x0 x1 (r0_2.emb (ix4 u v r c))
    rw [emb_head0]
    unfold k0_pay8
    rw [Cert.LibUnitAxes.shapeCast_ab_11ab_apply, weights0_apply]
    rfl

end Cert.KernelIdeal.Body

end
-- ==== Proof.KernelReads.lean ====
/-
  How the grid's blocks sit in the arrays. A grid point is a batch `b`, a pair of heads `p` and a tile `g` of 512 query
  positions. Its query block is rows `512·g + r`, lanes `128·p + j` of batch `b`; its key and value blocks are all
  2048 rows, the same lanes; its block of attended values sits where the query block does; its block of weights is
  heads `2·p + hh`, query positions `512·g + r`, all key positions. These relations between the five index maps are
  decided once over the 128 points. With them a block score is the array score: lane `64·hh + d` of the block is lane
  `64·(2p + hh) + d` of the array.
-/
import proofs.«106700_j15539191677067_2_alg».proof.Proof.Gen.KernelIdeal.Frame
import proofs.«106700_j15539191677067_2_alg».proof.Proof.BodyHeads

noncomputable section

namespace Cert.KernelIdeal.Arrays

open Cert.KernelIdeal Cert.KernelIdeal.Gen Cert.KernelIdeal.Body Idealize.ShloMosaic Idealize.ShloMosaic.TcCoe Idealize.ShloMosaic.ValueIdx Cert.Attention

variable (m : (ℓ : Loc nD τ sig) → Buf (Elt Ideal) ℓ)

/-- The five index maps against the weights window's: batch, pair of heads, query tile. -/
theorem idx_facts : ∀ t : Fin cfg0.N,
    win0_0.index t (0 : Fin 3) = win0_4.index t (0 : Fin 4) ∧ win0_0.index t (1 : Fin 3) = win0_4.index t (2 : Fin 4)
    ∧ win0_0.index t (2 : Fin 3) = win0_4.index t (1 : Fin 4)
    ∧ win0_1.index t (0 : Fin 3) = win0_4.index t (0 : Fin 4) ∧ win0_1.index t (1 : Fin 3) = 0
    ∧ win0_1.index t (2 : Fin 3) = win0_4.index t (1 : Fin 4)
    ∧ win0_2.index t (0 : Fin 3) = win0_4.index t (0 : Fin 4) ∧ win0_2.index t (1 : Fin 3) = 0
    ∧ win0_2.index t (2 : Fin 3) = win0_4.index t (1 : Fin 4)
    ∧ win0_3.index t (0 : Fin 3) = win0_4.index t (0 : Fin 4) ∧ win0_3.index t (1 : Fin 3) = win0_4.index t (2 : Fin 4)
    ∧ win0_3.index t (2 : Fin 3) = win0_4.index t (1 : Fin 4)
    ∧ win0_4.index t (3 : Fin 4) = 0 ∧ win0_4.index t (0 : Fin 4) ≤ 3 ∧ win0_4.index t (1 : Fin 4) ≤ 7
    ∧ win0_4.index t (2 : Fin 4) ≤ 3 :=
  (by decide +kernel : ∀ t : Fin grid0.N, _)

/-- Every batch, pair of heads and query tile is some point's. -/
theorem idx_onto : ∀ (b : Fin 4) (p : Fin 8) (g : Fin 4), ∃ t : Fin cfg0.N, win0_4.index t = ![b.val, p.val, g.val, 0] :=
  (by decide +kernel : ∀ (b : Fin 4) (p : Fin 8) (g : Fin 4), ∃ t : Fin grid0.N, win0_4.index t = ![b.val, p.val, g.val, 0])

/-- The query block at a point, read at `(u, r, j)`, is the array at the block's place. -/
theorem readQ (c : Dev nD) (t : Fin cfg0.N) (u : Fin 1) (r : Fin 512) (j : Fin 128) (i : S4x2048x1024.Idx)
    (h0 : (i 0).val = win0_0.index t (0 : Fin 3)) (h1 : (i 1).val = win0_0.index t (1 : Fin 3) * 512 + r.val)
    (h2 : (i 2).val = win0_0.index t (2 : Fin 3) * 128 + j.val) :
    iblk m c 0 t (ix3 u r j) = V m c main_arg0 i := by
  show V m c main_arg0 (((cfg0.win 0).blk t).view.emb (ix3 u r j)) = V m c main_arg0 i
  refine congrArg (V m c main_arg0) (funext fun a => Fin.ext ?_)
  match a with
  | ⟨0, _⟩ => show win0_0.index t (0 : Fin 3) * 1 + 1 * u.val = (i 0).val; omega
  | ⟨1, _⟩ => show win0_0.index t (1 : Fin 3) * 512 + 1 * r.val = (i 1).val; omega
  | ⟨2, _⟩ => show win0_0.index t (2 : Fin 3) * 128 + 1 * j.val = (i 2).val; omega

/-- The key block at a point, read at `(u, r, j)`. -/
theorem readK (c : Dev nD) (t : Fin cfg0.N) (u : Fin 1) (r : Fin 2048) (j : Fin 128) (i : S4x2048x1024.Idx)
    (h0 : (i 0).val = win0_1.index t (0 : Fin 3)) (h1 : (i 1).val = win0_1.index t (1 : Fin 3) * 2048 + r.val)
    (h2 : (i 2).val = win0_1.index t (2 : Fin 3) * 128 + j.val) :
    iblk m c 1 t (ix3 u r j) = V m c main_arg1 i := by
  show V m c main_arg1 (((cfg0.win 1).blk t).view.emb (ix3 u r j)) = V m c main_arg1 i
  refine congrArg (V m c main_arg1) (funext fun a => Fin.ext ?_)
  match a with
  | ⟨0, _⟩ => show win0_1.index t (0 : Fin 3) * 1 + 1 * u.val = (i 0).val; omega
  | ⟨1, _⟩ => show win0_1.index t (1 : Fin 3) * 2048 + 1 * r.val = (i 1).val; omega
  | ⟨2, _⟩ => show win0_1.index t (2 : Fin 3) * 128 + 1 * j.val = (i 2).val; omega

/-- The value block at a point, read at `(u, r, j)`. -/
theorem readV (c : Dev nD) (t : Fin cfg0.N) (u : Fin 1) (r : Fin 2048) (j : Fin 128) (i : S4x2048x1024.Idx)
    (h0 : (i 0).val = win0_2.index t (0 : Fin 3)) (h1 : (i 1).val = win0_2.index t (1 : Fin 3) * 2048 + r.val)
    (h2 : (i 2).val = win0_2.index t (2 : Fin 3) * 128 + j.val) :
    iblk m c 2 t (ix3 u r j) = V m c main_arg2 i := by
  show V m c main_arg2 (((cfg0.win 2).blk t).view.emb (ix3 u r j)) = V m c main_arg2 i
  refine congrArg (V m c main_arg2) (funext fun a => Fin.ext ?_)
  match a with
  | ⟨0, _⟩ => show win0_2.index t (0 : Fin 3) * 1 + 1 * u.val = (i 0).val; omega
  | ⟨1, _⟩ => show win0_2.index t (1 : Fin 3) * 2048 + 1 * r.val = (i 1).val; omega
  | ⟨2, _⟩ => show win0_2.index t (2 : Fin 3) * 128 + 1 * j.val = (i 2).val; omega

/-- A block's scores are the arrays' scores when the block's rows and lanes are the arrays' rows and lanes. -/
theorem blkScore_eq_score (q k : SArg.Idx → EReal) (x0 : Vec Ideal S1x512x128 .f32) (x1 : Vec Ideal S1x2048x128 .f32)
    (b : Fin 4) (h : Fin 16) (s : Fin 2048) (hh : Fin 2) (r : Fin 512)
    (hq : ∀ d : Fin 64, x0 (ix3 (0 : Fin 1) r (laneOf hh d)) = q (ix3 b s (lane h d)))
    (hk : ∀ (c : Fin 2048) (d : Fin 64), x1 (ix3 (0 : Fin 1) c (laneOf hh d)) = k (ix3 b c (lane h d))) :
    blkScore x0 x1 hh r = score q k b h s := by
  funext c
  unfold blkScore score
  exact congrArg (· * scale) (Finset.sum_congr rfl fun d _ => by rw [hq d, hk c d])

/-- The scores of a point's blocks are the arrays' scores at the point's batch, head and query position. -/
theorem point_score (c : Dev nD) (t : Fin cfg0.N) (hh : Fin 2) (r : Fin 512) (b : Fin 4) (h : Fin 16) (s : Fin 2048)
    (hb : b.val = win0_4.index t (0 : Fin 4)) (hh' : h.val = win0_4.index t (1 : Fin 4) * 2 + hh.val)
    (hs : s.val = win0_4.index t (2 : Fin 4) * 512 + r.val) :
    blkScore (iblk m c 0 t) (iblk m c 1 t) hh r = score (V m c main_arg0) (V m c main_arg1) b h s := by
  obtain ⟨e0, e1, e2, e3, e4, e5, -, -, -, -, -, -, -, -, -, -⟩ := idx_facts t
  refine blkScore_eq_score (V m c main_arg0) (V m c main_arg1) (iblk m c 0 t) (iblk m c 1 t) b h s hh r ?_ ?_
  · intro d
    exact readQ m c t 0 r (laneOf hh d) (ix3 b s (lane h d)) (by show b.val = _; omega) (by show s.val = _; omega)
      (by show h.val * 64 + d.val = _ * 128 + (hh.val * 64 + d.val); omega)
  · intro c' d
    exact readK m c t 0 c' (laneOf hh d) (ix3 b c' (lane h d)) (by show b.val = _; omega) (by show c'.val = _ * 2048 + c'.val; omega)
      (by show h.val * 64 + d.val = _ * 128 + (hh.val * 64 + d.val); omega)

end Cert.KernelIdeal.Arrays

end
-- ==== Proof.KernelWeights.lean ====
/-
  The array of attention weights after the kernel's run. The point of batch `b`, pair of heads `p` and query tile `g`
  writes back the block of heads `2p + hh`, query positions `512·g + r` and all key positions; what it writes there is
  the softmax of the scores of the point's blocks, which are the arrays' scores at that batch, head and query position.
  Every index of the array lies in the block of exactly the point `(b, h / 2, s / 512)`, so the array ends holding the
  weights function of the query and key arrays.
-/
import proofs.«106700_j15539191677067_2_alg».proof.Proof.Gen.KernelIdeal.Value
import proofs.«106700_j15539191677067_2_alg».proof.Proof.BodyBlocks
import proofs.«106700_j15539191677067_2_alg».proof.Proof.KernelReads

noncomputable section

namespace Cert.KernelIdeal.Arrays

open Cert.KernelIdeal Cert.KernelIdeal.Gen Cert.KernelIdeal.Body Idealize.ShloMosaic Idealize.ShloMosaic.TcCoe Idealize.ShloMosaic.ValueIdx Cert.Attention
open Idealize.ShloMosaic.Pipeline (Dat)

variable (m : (ℓ : Loc nD τ sig) → Buf (Elt Ideal) ℓ)

/-- What a point writes back to the weights array is its block of the weights function of the arrays. -/
theorem flushedW_eq (c : Dev nD) (t : Fin cfg0.N) :
    (dats m 0 c).flushed 4 t
      = ((cfg0.win 4).blk t).view.read (Elt Ideal) (weightsArr (V m c main_arg0) (V m c main_arg1)) := by
  refine (Cert.KernelIdeal.Value.flushed4 m c t).trans ?_
  rw [out_weights (iblk m c 0 t) (iblk m c 1 t) (iblk m c 2 t)]
  obtain ⟨-, -, -, -, -, -, -, -, -, -, -, -, e12, b0, b1, b2⟩ := idx_facts t
  funext y
  obtain ⟨u, hh, r, c', rfl⟩ : ∃ (u : Fin 1) (hh : Fin 2) (r : Fin 512) (c' : Fin 2048), y = ix4 u hh r c' :=
    ⟨y 0, y 1, y 2, y 3, eq_ix4 y⟩
  have hE : ((cfg0.win 4).blk t).view.emb (ix4 u hh r c')
      = ix4 (⟨win0_4.index t (0 : Fin 4), by omega⟩ : Fin 4) (⟨win0_4.index t (1 : Fin 4) * 2 + hh.val, by omega⟩ : Fin 16)
          (⟨win0_4.index t (2 : Fin 4) * 512 + r.val, by omega⟩ : Fin 2048) c' := by
    funext a; apply Fin.ext
    match a with
    | ⟨0, _⟩ => show win0_4.index t (0 : Fin 4) * 1 + 1 * u.val = win0_4.index t (0 : Fin 4); omega
    | ⟨1, _⟩ => show win0_4.index t (1 : Fin 4) * 2 + 1 * hh.val = win0_4.index t (1 : Fin 4) * 2 + hh.val; omega
    | ⟨2, _⟩ => show win0_4.index t (2 : Fin 4) * 512 + 1 * r.val = win0_4.index t (2 : Fin 4) * 512 + r.val; omega
    | ⟨3, _⟩ => show win0_4.index t (3 : Fin 4) * 2048 + 1 * c'.val = c'.val; omega
  show blkWeights (iblk m c 0 t) (iblk m c 1 t) (ix4 u hh r c')
    = weightsArr (V m c main_arg0) (V m c main_arg1) (((cfg0.win 4).blk t).view.emb (ix4 u hh r c'))
  rw [hE]
  show softmax (blkScore (iblk m c 0 t) (iblk m c 1 t) hh r) c' = softmax (score (V m c main_arg0) (V m c main_arg1) _ _ _) c'
  exact congrArg (fun x => softmax x c') (point_score m c t hh r _ _ _ rfl rfl rfl)

/-- An index of the weights array is in a point's block iff each coordinate is in the block's range on its axis. -/
theorem mem_blkW (t : Fin cfg0.N) (i : S4x16x2048x2048.Idx) :
    i ∈ ((cfg0.win 4).blk t).view.set ↔ ∀ a : Fin 4, win0_4.index t a * S1x2x512x2048.size a ≤ (i a).val
      ∧ (i a).val < win0_4.index t a * S1x2x512x2048.size a + S1x2x512x2048.size a := by
  show i ∈ ((View.whole main_v0_1).slice (win0_4.rect t)).set ↔ _
  rw [View.set_slice_whole, Rect.mem_set_unit]
  exact Iff.rfl

/-- Every index of the weights array is in the block of the point of its batch, its pair of heads and its query tile. -/
theorem coverW (i : S4x16x2048x2048.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val / 2, by omega⟩ ⟨(i 2).val / 512, by omega⟩
  have q0 : win0_4.index t (0 : Fin 4) = (i 0).val := congrFun ht 0
  have q1 : win0_4.index t (1 : Fin 4) = (i 1).val / 2 := congrFun ht 1
  have q2 : win0_4.index t (2 : Fin 4) = (i 2).val / 512 := congrFun ht 2
  have q3 : win0_4.index t (3 : Fin 4) = 0 := congrFun ht 3
  refine ⟨t, flush0_4 t, ?_⟩
  rw [mem_blkW]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 2 ≤ (i 1).val ∧ (i 1).val < win0_4.index t (1 : Fin 4) * 2 + 2; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- The weights array after the run is the weights function of the query and key arrays. -/
theorem finalW (c : Dev nD) :
    (dats m 0 c).arrAt 4 cfg0.N = weightsArr (V m c main_arg0) (V m c main_arg1) :=
  (dats m 0 c).arrAt_eq_of_cover 4 (weightsArr (V m c main_arg0) (V m c main_arg1)) (fun t _ => flushedW_eq m c t) coverW

end Cert.KernelIdeal.Arrays

end
-- ==== Proof.KernelAttend.lean ====
/-
  The array of attended values after the kernel's run. The point of batch `b`, pair of heads `p` and query tile `g`
  writes back rows `512·g + r`, lanes `128·p + j` of batch `b`. Lane `128·p + j` belongs to head `2p + j / 64`, the head
  of the pair the block lane `j` belongs to, so what the point writes at `(r, j)` — that head's weights against lane `j`
  of the point's value block — is the arrays' attended value at `(b, 512·g + r, 128·p + j)`. Every index of the array
  lies in the block of the point `(b, e / 128, s / 512)`.
-/
import proofs.«106700_j15539191677067_2_alg».proof.Proof.Gen.KernelIdeal.Value
import proofs.«106700_j15539191677067_2_alg».proof.Proof.BodyBlocks
import proofs.«106700_j15539191677067_2_alg».proof.Proof.KernelReads

noncomputable section

namespace Cert.KernelIdeal.Arrays

open Cert.KernelIdeal Cert.KernelIdeal.Gen Cert.KernelIdeal.Body Idealize.ShloMosaic Idealize.ShloMosaic.TcCoe Idealize.ShloMosaic.ValueIdx Cert.Attention
open Idealize.ShloMosaic.Pipeline (Dat)

variable (m : (ℓ : Loc nD τ sig) → Buf (Elt Ideal) ℓ)

/-- What a point writes back to the array of attended values is its block of the attended function of the arrays. -/
theorem flushedA_eq (c : Dev nD) (t : Fin cfg0.N) :
    (dats m 0 c).flushed 3 t
      = ((cfg0.win 3).blk t).view.read (Elt Ideal) (attendArr (V m c main_arg0) (V m c main_arg1) (V m c main_arg2)) := by
  refine (Cert.KernelIdeal.Value.flushed3 m c t).trans ?_
  rw [out_attend (iblk m c 0 t) (iblk m c 1 t) (iblk m c 2 t)]
  obtain ⟨-, -, -, -, -, -, e6, e7, e8, e9, e10, e11, e12, b0, b1, b2⟩ := idx_facts t
  funext y
  obtain ⟨u, r, j, rfl⟩ : ∃ (u : Fin 1) (r : Fin 512) (j : Fin 128), y = ix3 u r j := ⟨y 0, y 1, y 2, eq_ix3 y⟩
  obtain ⟨pb, hpb⟩ : ∃ pb : Fin 4, pb.val = win0_4.index t (0 : Fin 4) := ⟨⟨win0_4.index t (0 : Fin 4), by omega⟩, rfl⟩
  obtain ⟨ps, hps⟩ : ∃ ps : Fin 2048, ps.val = win0_4.index t (2 : Fin 4) * 512 + r.val :=
    ⟨⟨win0_4.index t (2 : Fin 4) * 512 + r.val, by omega⟩, rfl⟩
  obtain ⟨pe, hpe⟩ : ∃ pe : Fin 1024, pe.val = win0_4.index t (1 : Fin 4) * 128 + j.val :=
    ⟨⟨win0_4.index t (1 : Fin 4) * 128 + j.val, by omega⟩, rfl⟩
  have hE : ((cfg0.win 3).blk t).view.emb (ix3 u r j) = ix3 pb ps pe := by
    funext a; apply Fin.ext
    match a with
    | ⟨0, _⟩ => show win0_3.index t (0 : Fin 3) * 1 + 1 * u.val = pb.val; omega
    | ⟨1, _⟩ => show win0_3.index t (1 : Fin 3) * 512 + 1 * r.val = ps.val; omega
    | ⟨2, _⟩ => show win0_3.index t (2 : Fin 3) * 128 + 1 * j.val = pe.val; omega
  show blkAttend (iblk m c 0 t) (iblk m c 1 t) (iblk m c 2 t) (ix3 u r j)
    = attendArr (V m c main_arg0) (V m c main_arg1) (V m c main_arg2) (((cfg0.win 3).blk t).view.emb (ix3 u r j))
  rw [hE]
  show ∑ c' : Fin 2048, softmax (blkScore (iblk m c 0 t) (iblk m c 1 t) (halfOf j) r) c' * iblk m c 2 t (ix3 (0 : Fin 1) c' j)
    = ∑ c' : Fin 2048, softmax (score (V m c main_arg0) (V m c main_arg1) pb (headOf pe) ps) c' * V m c main_arg2 (ix3 pb c' pe)
  rw [point_score m c t (halfOf j) r pb (headOf pe) ps hpb
    (by show pe.val / 64 = win0_4.index t (1 : Fin 4) * 2 + j.val / 64; omega) hps]
  refine Finset.sum_congr rfl fun c' _ => ?_
  rw [readV m c t 0 c' j (ix3 pb c' pe) (by show pb.val = _; omega) (by show c'.val = _ * 2048 + c'.val; omega)
    (by show pe.val = _ * 128 + j.val; omega)]

/-- An index of the array of attended values is in a point's block iff each coordinate is in the block's range. -/
theorem mem_blkA (t : Fin cfg0.N) (i : S4x2048x1024.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v0_0).slice (win0_3.rect t)).set ↔ _
  rw [View.set_slice_whole, Rect.mem_set_unit]
  exact Iff.rfl

/-- Every index of the array of attended values is in the block of the point of its batch, its lanes' pair of heads and
    its query tile. -/
theorem coverA (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 2).val / 128, by omega⟩ ⟨(i 1).val / 512, by omega⟩
  have q0 : win0_4.index t (0 : Fin 4) = (i 0).val := congrFun ht 0
  have q1 : win0_4.index t (1 : Fin 4) = (i 2).val / 128 := congrFun ht 1
  have q2 : win0_4.index t (2 : Fin 4) = (i 1).val / 512 := congrFun ht 2
  obtain ⟨-, -, -, -, -, -, -, -, -, e9, e10, e11, -, -, -, -⟩ := idx_facts t
  refine ⟨t, flush0_3 t, ?_⟩
  rw [mem_blkA]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The array of attended values after the run is the attended function of the three argument arrays. -/
theorem finalA (c : Dev nD) :
    (dats m 0 c).arrAt 3 cfg0.N = attendArr (V m c main_arg0) (V m c main_arg1) (V m c main_arg2) :=
  (dats m 0 c).arrAt_eq_of_cover 3 (attendArr (V m c main_arg0) (V m c main_arg1) (V m c main_arg2))
    (fun t _ => flushedA_eq m c t) coverA

end Cert.KernelIdeal.Arrays

end
-- ==== Proof.KernelRun.lean ====
/-
  The kernel's run at the ideal values, with both result arrays named as functions of the launched arguments: every
  weakly fair execution terminates with the first result at the attended function of the three arrays, the second at
  the weights function of the query and key arrays, and the arguments unchanged.
-/
import proofs.«106700_j15539191677067_2_alg».proof.Proof.Gen.KernelIdeal.Value
import proofs.«106700_j15539191677067_2_alg».proof.Proof.KernelWeights
import proofs.«106700_j15539191677067_2_alg».proof.Proof.KernelAttend

noncomputable section

namespace Cert.KernelIdeal.Arrays

open Cert.KernelIdeal Cert.KernelIdeal.Gen Idealize.ShloMosaic Idealize.ShloMosaic.TcCoe Idealize.SL.Sem Cert.Attention

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0)
        = attendArr (m ((c : Thread nD τ).loc main_arg0)) (m ((c : Thread nD τ).loc main_arg1)) (m ((c : Thread nD τ).loc main_arg2))
      ∧ r.2.mem ((c : Thread nD τ).loc main_v0_1)
        = weightsArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalA m c), (h c).2.1.trans (finalW m c), (h c).2.2⟩)
    (Cert.KernelIdeal.Value.run_blocks m ρ)

end Cert.KernelIdeal.Arrays

end
-- ==== Proof.Consts.lean ====
/-
  The reference's scale is the kernel's: the reference divides `1` by the square root of `1024`, the kernel multiplies by
  the number the word `0x3D000000` denotes. As extended reals `0x44800000` is `1024 = 32²`, `0x3F800000` is `1`, and
  `0x3D000000` is `2⁻⁵ = 1/32`; the square root of `1024` is `32`, and `1 / 32` is the product of `1` with `1/32`.
-/
import Idealize.ShloMosaic.PureOps.Ideal

noncomputable section

namespace Cert.Consts

open Idealize.ShloMosaic

/-- The word `0x44800000` denotes `1024`. -/
theorem ofBits_1024 : Ideal.ofBits .f32 0x44800000#32 = ((1024 : ℝ) : EReal) := by
  simp [Ideal.ofBits, Ideal.ieee, -EReal.coe_mul]; norm_num

/-- The word `0x3F800000` denotes `1`. -/
theorem ofBits_one : Ideal.ofBits .f32 0x3F800000#32 = ((1 : ℝ) : EReal) := by
  simp [Ideal.ofBits, Ideal.ieee, -EReal.coe_mul]; norm_num

/-- The word `0x3D000000` denotes `1/32`. -/
theorem ofBits_thirtysecond : Ideal.ofBits .f32 0x3D000000#32 = ((1 / 32 : ℝ) : EReal) := by
  simp [Ideal.ofBits, Ideal.ieee, -EReal.coe_mul]; norm_num

/-- `1024` is the square of `32`. -/
theorem sqrt_1024 : Real.sqrt 1024 = 32 := by
  rw [show (1024 : ℝ) = 32 ^ 2 by norm_num]
  exact Real.sqrt_sq (by norm_num)

/-- One over the square root of `1024`, as the reference computes it, is the kernel's scale word. -/
theorem scale_eq :
    Ideal.div (Ideal.ofBits .f32 0x3F800000#32) (Ideal.sqrt (Ideal.ofBits .f32 0x44800000#32)) = Ideal.ofBits .f32 0x3D000000#32 := by
  rw [ofBits_1024, Ideal.sqrt_coe, if_neg (by norm_num), sqrt_1024, Ideal.div_coe (by norm_num : (32 : ℝ) ≠ 0), ofBits_one,
    ofBits_thirtysecond, ← EReal.coe_mul, one_mul]

end Cert.Consts

end
-- ==== Proof.RefWeights.lean ====
/-
  The reference's attention weights, read one operation at a time, are the weights function of the query and key
  arrays. Recast as `[4, 2048, 16, 64]` and transposed to `[4, 16, 2048, 64]`, the query array at `(b, h, s, d)` is the
  array at `(b, s, 64h + d)`, and likewise the keys; so the batched product at `(b, h, s, c)` is the sum over `d` of
  `q[b, s, 64h+d] · k[b, c, 64h+d]`, and times `1 / √1024` it is the score. The row maximum is the fold of `max` from
  −∞ over the key positions (taken once more against −∞, which changes nothing); the row sum starts from zero.
-/
import proofs.«106700_j15539191677067_2_alg».proof.Proof.Gen.ReferenceIdeal.Read
import proofs.«106700_j15539191677067_2_alg».proof.Proof.Spec
import proofs.«106700_j15539191677067_2_alg».proof.Proof.Consts
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attention

/-- The queries (or keys) of head `h` at `(b, h, s, d)`, through the recast and the transposition: the array at
    `(b, s, 64h + d)`. -/
theorem headIdx (j : S4x16x2048x64.Idx) (b : Fin 4) (h : Fin 16) (s : Fin 2048) (d : Fin 64)
    (h0 : (j 0).val = b.val) (h1 : (j 1).val = h.val) (h2 : (j 2).val = s.val) (h3 : (j 3).val = d.val) :
    idx_main_v0 (idx_main_v1 j) = ix3 b s (lane h d) := by
  have hb := b.isLt; have hh := h.isLt; have hs := s.isLt; have hd := d.isLt
  funext a; apply Fin.ext
  match a with
  | ⟨0, _⟩ => show ((((j 0).val * 2048 + (j 2).val) * 16 + (j 1).val) * 64 + (j 3).val) / 2097152 = b.val; omega
  | ⟨1, _⟩ => show ((((j 0).val * 2048 + (j 2).val) * 16 + (j 1).val) * 64 + (j 3).val) / 1024 % 2048 = s.val; omega
  | ⟨2, _⟩ => show ((((j 0).val * 2048 + (j 2).val) * 16 + (j 1).val) * 64 + (j 3).val) % 1024 = h.val * 64 + d.val; omega

/-- The reference's scaled scores at `(b, h, s, c)`. -/
theorem scores_apply (q k : (⟨S4x2048x1024, .f32⟩ : BufTy).Contents (Elt Ideal)) (b : Fin 4) (h : Fin 16) (s c : Fin 2048) :
    val_main_v10 (F := Ideal) q k (ix4 b h s c) = score q k b h s c := by
  rw [val_main_v10_apply, val_main_v8_apply, val_main_v9_apply, val_main_v7_apply, val_main_v6_apply, val_main_cst_apply,
    val_main_cst_0_apply]
  show (∑ d : Fin 64, val_main_v1 (F := Ideal) q (lidx_main_v8 (ix4 b h s c) d) * val_main_v3 (F := Ideal) k (ridx_main_v8 (ix4 b h s c) d))
      * Ideal.div (Ideal.ofBits .f32 0x3F800000#32) (Ideal.sqrt (Ideal.ofBits .f32 0x44800000#32)) = _
  rw [Cert.Consts.scale_eq]
  unfold score
  refine congrArg (· * scale) (Finset.sum_congr rfl fun d _ => ?_)
  rw [val_main_v1_apply, val_main_v0_apply, val_main_v3_apply, val_main_v2_apply]
  have e1 : idx_main_v0 (idx_main_v1 (lidx_main_v8 (ix4 b h s c) d)) = ix3 b s (lane h d) :=
    headIdx _ b h s d rfl rfl rfl rfl
  have e2 : idx_main_v2 (idx_main_v3 (ridx_main_v8 (ix4 b h s c) d)) = ix3 b c (lane h d) :=
    headIdx _ b h c d rfl rfl rfl rfl
  rw [e1, e2]

/-- A row of the scores with the key position put back: the reduced index `(b, h, s)` lifted by `c` is `(b, h, s, c)`. -/
theorem lift_row (hR : S4x16x2048x2048.Reduces [3] S4x16x2048) (b : Fin 4) (h : Fin 16) (s c : Fin 2048) :
    hR.lift (ix3 b h s) c = ix4 b h s c := by
  funext a; apply Fin.ext
  match a with
  | ⟨0, _⟩ => rfl
  | ⟨1, _⟩ => rfl
  | ⟨2, _⟩ => rfl
  | ⟨3, _⟩ => rfl

/-- The reference's row maximum at `(b, h, s)`: the fold of `max` from −∞ over the row's scores; the further maximum
    against −∞ leaves it, the fold being at least its starting value. -/
theorem rowMax_apply (q k : (⟨S4x2048x1024, .f32⟩ : BufTy).Contents (Elt Ideal)) (b : Fin 4) (h : Fin 16) (s : Fin 2048) :
    val_main_v13 (F := Ideal) q k (ix3 b h s) = rowMax (score q k b h s) := by
  have hR : S4x16x2048x2048.Reduces [3] S4x16x2048 := by decide
  rw [val_main_v13_apply, val_main_v12_apply, val_main_cst_2_apply]
  unfold val_main_v11
  rw [Host.reduce_eq_fold_single FloatOps.maximumf _ _ reducesTo_S4x16x2048x2048_S4x16x2048_d3 hR h_S_ (ix3 b h s)]
  have ef : (val_main_v10 (F := Ideal) q k ∘ hR.lift (ix3 b h s)) = score q k b h s :=
    funext fun c => (congrArg (val_main_v10 (F := Ideal) q k) (lift_row hR b h s c)).trans (scores_apply q k b h s c)
  rw [ef]
  show max negInf ((Finset.univ : Finset (Fin 2048)).fold max negInf (score q k b h s)) = rowMax (score q k b h s)
  unfold rowMax
  exact max_eq_right (by rw [Finset.le_fold_max]; exact Or.inl le_rfl)

/-- The reference's exponentials at `(b, h, s, c)`. -/
theorem exps_apply (q k : (⟨S4x2048x1024, .f32⟩ : BufTy).Contents (Elt Ideal)) (b : Fin 4) (h : Fin 16) (s c : Fin 2048) :
    val_main_v17 (F := Ideal) q k (ix4 b h s c) = Ideal.exp (score q k b h s c - rowMax (score q k b h s)) := by
  rw [val_main_v17_apply, val_main_v16_apply, val_main_v15_apply, val_main_v14_apply, scores_apply]
  have e : idx_main_v14 (idx_main_v15 (ix4 b h s c)) = ix3 b h s :=
    funext fun a => Fin.ext (by match a with | ⟨0, _⟩ => rfl | ⟨1, _⟩ => rfl | ⟨2, _⟩ => rfl)
  rw [e, rowMax_apply]
  rfl

/-- The reference's row sum at `(b, h, s)`: from zero, the sum of the row's exponentials. -/
theorem rowSum_apply (q k : (⟨S4x2048x1024, .f32⟩ : BufTy).Contents (Elt Ideal)) (b : Fin 4) (h : Fin 16) (s : Fin 2048) :
    val_main_v18 (F := Ideal) q k (ix3 b h s) = ∑ c : Fin 2048, Ideal.exp (score q k b h s c - rowMax (score q k b h s)) := by
  rw [val_main_v18_apply, val_main_cst_3_apply]
  show Ideal.ofBits .f32 0x00000000#32 + _ = _
  rw [Ideal.ofBits_zero_f32, zero_add]
  refine Finset.sum_congr rfl fun c _ => ?_
  have e : idx_main_v18 (ix3 b h s) c = ix4 b h s c :=
    funext fun a => Fin.ext (by match a with | ⟨0, _⟩ => rfl | ⟨1, _⟩ => rfl | ⟨2, _⟩ => rfl | ⟨3, _⟩ => rfl)
  rw [e, exps_apply]

/-- The reference's weights at `(b, h, s, c)`. -/
theorem weights_apply (q k : (⟨S4x2048x1024, .f32⟩ : BufTy).Contents (Elt Ideal)) (b : Fin 4) (h : Fin 16) (s c : Fin 2048) :
    val_main_v21 (F := Ideal) q k (ix4 b h s c) = weights q k b h s c := by
  rw [val_main_v21_apply, val_main_v20_apply, val_main_v19_apply, exps_apply]
  have e : idx_main_v19 (idx_main_v20 (ix4 b h s c)) = ix3 b h s :=
    funext fun a => Fin.ext (by match a with | ⟨0, _⟩ => rfl | ⟨1, _⟩ => rfl | ⟨2, _⟩ => rfl)
  rw [e, rowSum_apply]
  rfl

/-- The reference's second result is the weights function of the query and key arrays. -/
theorem weights_eq (q k : (⟨S4x2048x1024, .f32⟩ : BufTy).Contents (Elt Ideal)) :
    val_main_v21 (F := Ideal) q k = weightsArr q k := by
  funext i
  obtain ⟨b, h, s, c, rfl⟩ : ∃ (b : Fin 4) (h : Fin 16) (s c : Fin 2048), i = ix4 b h s c := ⟨i 0, i 1, i 2, i 3, eq_ix4 i⟩
  exact weights_apply q k b h s c

end Cert.ReferenceIdeal.RefValue

end
-- ==== Proof.RefAttend.lean ====
/-
  The reference's attended values, read one operation at a time, are the attended function of the three arrays. The
  batched product of the weights with the values of each head, at `(b, h, s, d)`, is the sum over the key positions `c`
  of `weights[b, h, s, c] · v[b, c, 64h + d]`; transposed back to `[4, 2048, 16, 64]` and recast as `[4, 2048, 1024]`, the
  entry `(b, s, e)` is the product's entry at head `e / 64` and coordinate `e mod 64`, and `64·(e / 64) + e mod 64 = e`.
-/
import proofs.«106700_j15539191677067_2_alg».proof.Proof.Gen.ReferenceIdeal.Read
import proofs.«106700_j15539191677067_2_alg».proof.Proof.Spec
import proofs.«106700_j15539191677067_2_alg».proof.Proof.RefWeights

noncomputable section

namespace Cert.ReferenceIdeal.RefValue

open Cert.ReferenceIdeal Cert.ReferenceIdeal.Gen Cert.ReferenceIdeal.Read Idealize.ShloMosaic Idealize.ShloMosaic.ValueIdx Cert.Attention

/-- The values of a head at `(b, h, c, d)` with `h = e / 64` and `d = e mod 64`, through the recast and the
    transposition: the array at `(b, c, e)`. -/
theorem valueIdx (j : S4x16x2048x64.Idx) (b : Fin 4) (c : Fin 2048) (e : Fin 1024)
    (h0 : (j 0).val = b.val) (h1 : (j 1).val = e.val / 64) (h2 : (j 2).val = c.val) (h3 : (j 3).val = e.val % 64) :
    idx_main_v4 (idx_main_v5 j) = ix3 b c e := by
  have hb := b.isLt; have hc := c.isLt; have he := e.isLt
  funext a; apply Fin.ext
  match a with
  | ⟨0, _⟩ => show ((((j 0).val * 2048 + (j 2).val) * 16 + (j 1).val) * 64 + (j 3).val) / 2097152 = b.val; omega
  | ⟨1, _⟩ => show ((((j 0).val * 2048 + (j 2).val) * 16 + (j 1).val) * 64 + (j 3).val) / 1024 % 2048 = c.val; omega
  | ⟨2, _⟩ => show ((((j 0).val * 2048 + (j 2).val) * 16 + (j 1).val) * 64 + (j 3).val) % 1024 = e.val; omega

/-- The reference's first result at `(b, s, e)`. -/
theorem attend_apply (q k v : (⟨S4x2048x1024, .f32⟩ : BufTy).Contents (Elt Ideal)) (b : Fin 4) (s : Fin 2048) (e : Fin 1024) :
    val_main_v24 (F := Ideal) q k v (ix3 b s e) = attend q k v b s e := by
  have hb := b.isLt; have hs := s.isLt; have he := e.isLt
  rw [val_main_v24_apply, val_main_v23_apply, val_main_v22_apply]
  unfold attend
  refine Finset.sum_congr rfl fun c _ => ?_
  have el : lidx_main_v22 (idx_main_v23 (idx_main_v24 (ix3 b s e))) c = ix4 b (headOf e) s c := by
    funext a; apply Fin.ext
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => rfl
  have er : idx_main_v4 (idx_main_v5 (ridx_main_v22 (idx_main_v23 (idx_main_v24 (ix3 b s e))) c)) = ix3 b c e :=
    valueIdx _ b c e (by show ((b.val * 2048 + s.val) * 1024 + e.val) / 2097152 = b.val; omega)
      (by show ((b.val * 2048 + s.val) * 1024 + e.val) / 64 % 16 = e.val / 64; omega) rfl
      (by show ((b.val * 2048 + s.val) * 1024 + e.val) % 64 = e.val % 64; omega)
  rw [el, weights_apply, val_main_v5_apply, val_main_v4_apply, er]

/-- The reference's first result is the attended function of the three arrays. -/
theorem attend_eq (q k v : (⟨S4x2048x1024, .f32⟩ : BufTy).Contents (Elt Ideal)) :
    val_main_v24 (F := Ideal) q k v = attendArr q k v := by
  funext i
  obtain ⟨b, s, e, rfl⟩ : ∃ (b : Fin 4) (s : Fin 2048) (e : Fin 1024), i = ix3 b s e := ⟨i 0, i 1, i 2, eq_ix3 i⟩
  exact attend_apply q k v b s e

end Cert.ReferenceIdeal.RefValue

end
-- ==== Proof.lean ====
/-
  Scaled dot-product attention over sixteen heads: a kernel that handles a pair of heads and a tile of 512 query
  positions per grid point, against the plain einsum-and-softmax reference, equal as extended reals.

  Both programs compute, for batch `b`, head `h` and query position `s`, the scores `(∑ d, q[b,s,64h+d] · k[b,c,64h+d]) · scale`
  against every key position `c`, their softmax (the attention weights, the second result) and the weights' sum against
  the values (the first result). The kernel's scale is the word for 1/32; the reference's is one over the square root of
  1024, the same number. The kernel rounds its matrix operands to a shorter format, which at the ideal values changes
  nothing, and lays two heads side by side in 128 lanes; the reference recasts and transposes. Operation by operation
  the two sides are the same sums, maxima, exponentials and quotients of the same entries, so no property of the
  inputs is used.

  The kernel's side: each result array after the run is named block by block by the generated value leg; the body's
  two buffers are read as functions of the three input blocks (Body*), the blocks are placed in the arrays (Kernel*).
  The reference's side: its generated run, read one operation at a time (Ref*). Both meet in `Cert.Attention` (Spec).
-/
import proofs.«106700_j15539191677067_2_alg».proof.Defs
import proofs.«106700_j15539191677067_2_alg».proof.Proof.Gen.Kernel
import proofs.«106700_j15539191677067_2_alg».proof.Proof.Gen.Kernel.Skeleton
import proofs.«106700_j15539191677067_2_alg».proof.Proof.Gen.Kernel.Launch
import proofs.«106700_j15539191677067_2_alg».proof.Proof.Gen.Kernel.Points
import proofs.«106700_j15539191677067_2_alg».proof.Proof.Gen.Kernel.Frame
import proofs.«106700_j15539191677067_2_alg».proof.Proof.Gen.KernelIdeal
import proofs.«106700_j15539191677067_2_alg».proof.Proof.Gen.KernelIdeal.Skeleton
import proofs.«106700_j15539191677067_2_alg».proof.Proof.Gen.KernelIdeal.Launch
import proofs.«106700_j15539191677067_2_alg».proof.Proof.Gen.KernelIdeal.Points
import proofs.«106700_j15539191677067_2_alg».proof.Proof.Gen.KernelIdeal.Frame
import proofs.«106700_j15539191677067_2_alg».proof.Proof.Gen.ReferenceIdeal
import proofs.«106700_j15539191677067_2_alg».proof.Proof.Gen.Pre_finite_inputs
import proofs.«106700_j15539191677067_2_alg».proof.Proof.Gen.KernelIdeal.Value
import proofs.«106700_j15539191677067_2_alg».proof.Proof.Gen.ReferenceIdeal.Run
import proofs.«106700_j15539191677067_2_alg».proof.Proof.Gen.ReferenceIdeal.Read
import proofs.«106700_j15539191677067_2_alg».proof.Proof.KernelRun
import proofs.«106700_j15539191677067_2_alg».proof.Proof.RefWeights
import proofs.«106700_j15539191677067_2_alg».proof.Proof.RefAttend
import Idealize.ShloMosaic.Adequacy
import Idealize.ShloMosaic.Init

noncomputable section

namespace Cert.Proof

open Idealize.ShloMosaic Idealize.SL.Sem Cert.Kernel

/-- The kernel as printed runs and leaves its arguments unchanged. -/
theorem frame_p : Cert.frame_Kernel := fun m ρ _ => Cert.Kernel.Gen.frame m ρ

/-- So does the kernel read at the ideal values. -/
theorem frame_pi : Cert.frame_KernelIdeal := fun m ρ _ => Cert.KernelIdeal.Gen.frame m ρ

/-- The reference's run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both runs end with the first result at the attended function and the
    second at the weights function of the same arrays. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.RefValue.attend_eq, (hagree c).1, (hagree c).2.1, (hagree c).2.2]
  · rw [Cert.ReferenceIdeal.Read.val_main_v21_eq, Cert.ReferenceIdeal.RefValue.weights_eq, (hagree c).1, (hagree c).2.1]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
